-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩
abbrev S6400x128 : Shape := ⟨2, ![6400, 128]⟩
abbrev S6400x1 : Shape := ⟨2, ![6400, 1]⟩

abbrev nBuf : Space → Nat
  | .hbm => 31
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S100000x128, .bf16⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .bf16⟩
  | .hbm, ⟨26, _⟩ => ⟨S128x128, .bf16⟩
  | .hbm, ⟨27, _⟩ => ⟨S128x1, .bf16⟩
  | .hbm, ⟨28, _⟩ => ⟨S1x128, .f32⟩
  | .hbm, ⟨29, _⟩ => ⟨S1x1, .f32⟩
  | .hbm, ⟨30, _⟩ => ⟨S1600000x1, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S128x128, .bf16⟩
  | .local _ .vmem, ⟨5, _⟩ => ⟨S1x128, .f32⟩
  | .local _ .vmem, ⟨6, _⟩ => ⟨S128x1, .bf16⟩
  | .local _ .vmem, ⟨7, _⟩ => ⟨S1x1, .f32⟩
  | .local _ .vmem, ⟨8, _⟩ => ⟨S6400x1, .f32⟩
  | .local _ .vmem, ⟨9, _⟩ => ⟨S6400x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  shapeCasts_S1_S1x1 : S1.ShapeCasts S1x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  gather_S100000x128_S1600000x1_S1600000x128_1_0_n_n_0_1_1128_wf : GatherDims.WF S100000x128 S1600000x1 S1600000x128 [1] [0] [] [0] [] 1 ![1, 128]
  dot_S6400x128_S128x128_S6400x128_1_0_0_1_n_n_wf : DotDims.WF S6400x128 S128x128 S6400x128 [1] [0] [0] [1] [] []
  dot_S6400x128_S128x1_S6400x1_1_0_0_1_n_n_wf : DotDims.WF S6400x128 S128x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .bf16 = 32 ∨ (Rect.block (s := S1600000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .bf16 = 32 ∨ (Rect.block (s := S1600000x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x1.size a ≤ S1600000x1.size a
  hwx0_6 : ∀ i : grid0.Coords, EltTy.bits .f32 = 32 ∨ (Rect.block (s := S1600000x1) S6400x1.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf

abbrev win0_0 : Pipeline.Window sig grid0 :=
  Pipeline.Window.ofSpec (Memref.whole main_v7) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S6400x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S1x128, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S1600000x1, .f32⟩
  | .hbm, ⟨34, _⟩ => ⟨S1x1, .f32⟩
  | .hbm, ⟨35, _⟩ => ⟨S1600000x1, .f32⟩
  | .hbm, ⟨36, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.EdgeScore.lean ====
/-
  The function both programs compute, stated once with no program in sight.

  An edge carries two feature rows `a b : Fin 128 → EReal` — the rows of the node table that its source and its
  destination select. Its score is a two-layer perceptron of their elementwise product, on the extended reals:

      score = Σ_k max (Σ_j (a j · b j) · W1 j k + b1 k) 0 · W2 k + b2 .

  `scores` is that function at every edge: from the two gathered feature arrays [E, 128] and the layers' parameters
  in the two-dimensional layouts the kernel's operands have, the array [E, 1] of scores. Nothing here needs a
  finite entry: only sums, products and a maximum are formed, in one fixed arrangement.
-/
import Idealize.ShloMosaic.PureOps.Ideal
import Idealize.ShloMosaic.Lib.ValueIdx

noncomputable section

open scoped BigOperators

namespace Cert.EdgeMlp

open Idealize.ShloMosaic Idealize.ShloMosaic.ValueIdx

/-- One edge's score from its two feature rows: the hidden unit `k` is the rectified affine form
    `max (Σ_j (a j · b j) · W1 j k + b1 k) 0`, and the score the affine form `Σ_k hidden k · W2 k + b2` of the hidden units. -/
def score (a b : Fin 128 → EReal) (W1 : Fin 128 → Fin 128 → EReal) (b1 : Fin 128 → EReal) (W2 : Fin 128 → EReal)
    (b2 : EReal) : EReal :=
  (∑ k : Fin 128, max ((∑ j : Fin 128, a j * b j * W1 j k) + b1 k) 0 * W2 k) + b2

/-- Every edge's score: entry `(e, q)` is `score` of rows `e` of the two gathered arrays, with the first layer's bias
    read along its one row, the second layer's weights down column `q` (there is one column) and its bias at its one entry. -/
def scores (hs hd : (⟨2, ![1600000, 128]⟩ : Shape).Idx → EReal) (W1 : (⟨2, ![128, 128]⟩ : Shape).Idx → EReal)
    (b1 : (⟨2, ![1, 128]⟩ : Shape).Idx → EReal) (W2 : (⟨2, ![128, 1]⟩ : Shape).Idx → EReal)
    (b2 : (⟨2, ![1, 1]⟩ : Shape).Idx → EReal) : (⟨2, ![1600000, 1]⟩ : Shape).Idx → EReal :=
  fun i => score (fun j => hs (ix2 (i 0) j)) (fun j => hd (ix2 (i 0) j)) (fun j k => W1 (ix2 j k))
    (fun k => b1 (ix2 0 k)) (fun k => W2 (ix2 k (i 1))) (b2 (ix2 0 0))

/-- `scores` at an index given by its coordinates. -/
theorem scores_apply (hs hd : (⟨2, ![1600000, 128]⟩ : Shape).Idx → EReal) (W1 : (⟨2, ![128, 128]⟩ : Shape).Idx → EReal)
    (b1 : (⟨2, ![1, 128]⟩ : Shape).Idx → EReal) (W2 : (⟨2, ![128, 1]⟩ : Shape).Idx → EReal)
    (b2 : (⟨2, ![1, 1]⟩ : Shape).Idx → EReal) (e : Fin 1600000) (q : Fin 1) :
    scores hs hd W1 b1 W2 b2 (ix2 e q) = score (fun j => hs (ix2 e j)) (fun j => hd (ix2 e j)) (fun j k => W1 (ix2 j k))
      (fun k => b1 (ix2 0 k)) (fun k => W2 (ix2 k q)) (b2 (ix2 0 0)) := rfl

end Cert.EdgeMlp

end
-- ==== Proof.RefScores.lean ====
/-
  The reference computes `scores`. Its program gathers the two feature arrays, multiplies them entry by entry,
  contracts the product's 128 columns with the first layer's weights, adds the first bias along rows, rectifies
  against zero, contracts the 128 hidden units with the second layer's weights and adds the second bias. Read at an
  entry `(e, q)` of the result, through the generated one-operation-at-a-time lemmas, this is `score` of rows `e` of
  the two gathered arrays: each contraction is a sum over its one contracted coordinate, each broadcast reads its
  operand at the coordinates it keeps, and the rectifier's zero is the zero word.
-/
import proofs.«174525_j89000312308383_1_alg».proof.Proof.Gen.ReferenceIdeal.Read
import proofs.«174525_j89000312308383_1_alg».proof.Proof.EdgeScore
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeMlp

/-- The reference's result array is `scores` of its two gathered arrays, its weights, and its two biases laid out as
    a row [1, 128] and as a single entry [1, 1] (the stages its own broadcasts pass through). -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x1, .f32⟩ : BufTy).Contents (Elt Ideal)) (x6 : (⟨S1, .f32⟩ : BufTy).Contents (Elt Ideal)) :
    val_main_v23 (F := Ideal) x0 x1 x2 x3 x4 x5 x6
      = scores (val_main_v6 (F := Ideal) x0 x1) (val_main_v13 (F := Ideal) x0 x2) x3 (val_main_v16 (F := Ideal) x4) x5
          (val_main_v21 (F := Ideal) x6) := by
  funext i
  obtain ⟨e, q, rfl⟩ : ∃ (e : Fin 1600000) (q : Fin 1), i = ix2 e q := ⟨i 0, i 1, eq_ix2 i⟩
  rw [scores_apply]
  unfold score
  -- the coordinates each stage reads, composed down from the result's entry
  have hl20 : ∀ k : Fin 128, lidx_main_v20 (ix2 e q) k = ix2 e k := fun k =>
    funext fun a => Fin.ext (by match a with | ⟨0, _⟩ => rfl | ⟨1, _⟩ => rfl)
  have hr20 : ∀ k : Fin 128, ridx_main_v20 (ix2 e q) k = ix2 k q := fun k =>
    funext fun a => Fin.ext (by match a with | ⟨0, _⟩ => rfl | ⟨1, _⟩ => rfl)
  have h22 : idx_main_v22 (ix2 e q) = ix2 0 0 :=
    funext fun a => Fin.ext (by match a with | ⟨0, _⟩ => rfl | ⟨1, _⟩ => rfl)
  have hl15 : ∀ k j : Fin 128, lidx_main_v15 (ix2 e k) j = ix2 e j := fun k j =>
    funext fun a => Fin.ext (by match a with | ⟨0, _⟩ => rfl | ⟨1, _⟩ => rfl)
  have hr15 : ∀ k j : Fin 128, ridx_main_v15 (ix2 e k) j = ix2 j k := fun k j =>
    funext fun a => Fin.ext (by match a with | ⟨0, _⟩ => rfl | ⟨1, _⟩ => rfl)
  have h17 : ∀ k : Fin 128, idx_main_v17 (ix2 e k) = ix2 0 k := fun k =>
    funext fun a => Fin.ext (by match a with | ⟨0, _⟩ => rfl | ⟨1, _⟩ => rfl)
  rw [val_main_v23_apply, val_main_v20_apply, val_main_v22_apply]
  simp only [hl20, hr20, h22, val_main_v19_apply, val_main_v18_apply, val_main_v15_apply, val_main_v17_apply,
    val_main_call0_v0_apply, val_main_call0_cst_apply, val_main_v14_apply, hl15, hr15, h17,
    Ideal.addf_def, Ideal.mulf_def, Ideal.maximumf_def, Ideal.ofBits_def, Ideal.ofBits_zero_f32]

end Cert.ReferenceIdeal.RefValue

end
-- ==== Proof.BodyScore.lean ====
/-
  What the kernel's body stores, entry by entry. The body loads a block of 6400 rows of each gathered array and
  the four parameter operands whole, and stores ONE value into its [6400, 1] output block: the elementwise product
  of the two row blocks, contracted with the first layer's weights on the matrix unit from a zero accumulator,
  plus the first bias broadcast down the rows, rectified against a splat zero, contracted with the second layer's
  weights from a zero accumulator, plus the second bias broadcast. At the ideal instance the changes of float
  format around the two contractions are the identity and a contraction from the zero accumulator is the plain sum
  over its contracted coordinate; so entry `(p, q)` of the stored value is `score` of rows `p` of the two loaded blocks.
-/
import proofs.«174525_j89000312308383_1_alg».proof.Proof.Gen.KernelIdeal.Skeleton
import proofs.«174525_j89000312308383_1_alg».proof.Proof.EdgeScore
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.EdgeMlp

/-- The hidden contraction's left operand is read at the result's row, -/
theorem hidden_lhs_row (i : S6400x128.Idx) (c : dot_S6400x128_S128x128_S6400x128_1_0_0_1_n_n.contr.Idx) : (dot_S6400x128_S128x128_S6400x128_1_0_0_1_n_n.lhsIdx i c 0).val = (i 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl
/-- and its right operand at the result's column. -/
theorem hidden_rhs_col (i : S6400x128.Idx) (c : dot_S6400x128_S128x128_S6400x128_1_0_0_1_n_n.contr.Idx) : (dot_S6400x128_S128x128_S6400x128_1_0_0_1_n_n.rhsIdx i c 1).val = (i 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

/-- The first contraction, [6400, 128] × [128, 128] from the zero accumulator, at entry `(p, k)`: the sum over the
    shared coordinate `j` of the left operand's row `p` times the right operand's column `k`. -/
theorem hidden_contraction (l : FVec Ideal S6400x128 .bf16) (r : FVec Ideal S128x128 .bf16) (p : Fin 6400) (k : Fin 128) :
    matmul dot_S6400x128_S128x128_S6400x128_1_0_0_1_n_n none l r (constant (F := Ideal) S6400x128 .f32 0x00000000#32) (ix2 p k)
      = ∑ j : Fin 128, l (ix2 p j) * r (ix2 j k) := by
  show FloatOps.matmul _ _ _ _ _ _ = _
  rw [Ideal.matmul_constant_zero_apply, ← Equiv.sum_comp (contrEquiv1 dot_S6400x128_S128x128_S6400x128_1_0_0_1_n_n 128 rfl rfl).symm]
  refine Finset.sum_congr rfl fun j _ => ?_
  have hc := contrEquiv1_symm_val dot_S6400x128_S128x128_S6400x128_1_0_0_1_n_n 128 rfl rfl j
  have el : dot_S6400x128_S128x128_S6400x128_1_0_0_1_n_n.lhsIdx (ix2 p k) ((contrEquiv1 dot_S6400x128_S128x128_S6400x128_1_0_0_1_n_n 128 rfl rfl).symm j) = ix2 p j :=
    funext fun a => Fin.ext (by
      match a with
      | ⟨0, _⟩ => exact hidden_lhs_row _ _
      | ⟨1, _⟩ => exact (dot_S6400x128_S128x128_S6400x128_1_0_0_1_n_n.lhsIdx_val_of_single rfl _ _).trans hc)
  have er : dot_S6400x128_S128x128_S6400x128_1_0_0_1_n_n.rhsIdx (ix2 p k) ((contrEquiv1 dot_S6400x128_S128x128_S6400x128_1_0_0_1_n_n 128 rfl rfl).symm j) = ix2 j k :=
    funext fun a => Fin.ext (by
      match a with
      | ⟨0, _⟩ => exact (dot_S6400x128_S128x128_S6400x128_1_0_0_1_n_n.rhsIdx_val_of_single rfl _ _).trans hc
      | ⟨1, _⟩ => exact hidden_rhs_col _ _)
  rw [el, er]

/-- The output contraction's left operand is read at the result's row, -/
theorem output_lhs_row (i : S6400x1.Idx) (c : dot_S6400x128_S128x1_S6400x1_1_0_0_1_n_n.contr.Idx) : (dot_S6400x128_S128x1_S6400x1_1_0_0_1_n_n.lhsIdx i c 0).val = (i 0).val := by
  unfold DotDims.lhsIdx
  rw [dif_neg (show ¬(0 : Fin S6400x128.rank) ∈ dot_S6400x128_S128x1_S6400x1_1_0_0_1_n_n.lhsBatch by decide),
    dif_pos (show (0 : Fin S6400x128.rank) ∈ dot_S6400x128_S128x1_S6400x1_1_0_0_1_n_n.lhsNonContracting by decide)]
  rfl
/-- and its right operand at the result's column. -/
theorem output_rhs_col (i : S6400x1.Idx) (c : dot_S6400x128_S128x1_S6400x1_1_0_0_1_n_n.contr.Idx) : (dot_S6400x128_S128x1_S6400x1_1_0_0_1_n_n.rhsIdx i c 1).val = (i 1).val := by
  unfold DotDims.rhsIdx
  rw [dif_neg (show ¬(1 : Fin S128x1.rank) ∈ dot_S6400x128_S128x1_S6400x1_1_0_0_1_n_n.rhsBatch by decide),
    dif_pos (show (1 : Fin S128x1.rank) ∈ dot_S6400x128_S128x1_S6400x1_1_0_0_1_n_n.rhsNonContracting by decide)]
  rfl

/-- The second contraction, [6400, 128] × [128, 1] from the zero accumulator, at entry `(p, q)`: the sum over the
    hidden coordinate `k` of the left operand's row `p` times the right operand's column `q`. -/
theorem output_contraction (l : FVec Ideal S6400x128 .bf16) (r : FVec Ideal S128x1 .bf16) (p : Fin 6400) (q : Fin 1) :
    matmul dot_S6400x128_S128x1_S6400x1_1_0_0_1_n_n none l r (constant (F := Ideal) S6400x1 .f32 0x00000000#32) (ix2 p q)
      = ∑ k : Fin 128, l (ix2 p k) * r (ix2 k q) := by
  show FloatOps.matmul _ _ _ _ _ _ = _
  rw [Ideal.matmul_constant_zero_apply, ← Equiv.sum_comp (contrEquiv1 dot_S6400x128_S128x1_S6400x1_1_0_0_1_n_n 128 rfl rfl).symm]
  refine Finset.sum_congr rfl fun k _ => ?_
  have hc := contrEquiv1_symm_val dot_S6400x128_S128x1_S6400x1_1_0_0_1_n_n 128 rfl rfl k
  have el : dot_S6400x128_S128x1_S6400x1_1_0_0_1_n_n.lhsIdx (ix2 p q) ((contrEquiv1 dot_S6400x128_S128x1_S6400x1_1_0_0_1_n_n 128 rfl rfl).symm k) = ix2 p k :=
    funext fun a => Fin.ext (by
      match a with
      | ⟨0, _⟩ => exact output_lhs_row _ _
      | ⟨1, _⟩ => exact (dot_S6400x128_S128x1_S6400x1_1_0_0_1_n_n.lhsIdx_val_of_single rfl _ _).trans hc)
  have er : dot_S6400x128_S128x1_S6400x1_1_0_0_1_n_n.rhsIdx (ix2 p q) ((contrEquiv1 dot_S6400x128_S128x1_S6400x1_1_0_0_1_n_n 128 rfl rfl).symm k) = ix2 k q :=
    funext fun a => Fin.ext (by
      match a with
      | ⟨0, _⟩ => exact (dot_S6400x128_S128x1_S6400x1_1_0_0_1_n_n.rhsIdx_val_of_single rfl _ _).trans hc
      | ⟨1, _⟩ => exact output_rhs_col _ _)
  rw [el, er]

/-- ENTRY `(p, q)` OF THE STORED VALUE is the score of rows `p` of the two loaded row blocks under the loaded parameters. -/
theorem stored_apply (x0 x1 : FVec Ideal S6400x128 .bf16) (x2 : FVec Ideal S128x128 .bf16) (x3 : FVec Ideal S1x128 .f32)
    (x4 : FVec Ideal S128x1 .bf16) (x5 : FVec Ideal S1x1 .f32) (p : Fin 6400) (q : Fin 1) :
    k0_pay1 (F := Ideal) x0 x1 x2 x3 x4 x5 (ix2 p q)
      = score (fun j => x0 (ix2 p j)) (fun j => x1 (ix2 p j)) (fun j k => x2 (ix2 j k)) (fun k => x3 (ix2 0 k))
          (fun k => x4 (ix2 k q)) (x5 (ix2 0 0)) := by
  unfold k0_pay1 score
  simp only [shapeCast_self]
  rw [addf_apply, output_contraction, broadcastTo_1b_ab_apply]
  obtain rfl : q = 0 := Subsingleton.elim _ _
  refine congrArg (· + x5 (ix2 0 0)) (Finset.sum_congr rfl fun k _ => ?_)
  refine congrArg (· * x4 (ix2 k 0)) ?_
  rw [truncf_apply, maximumf_apply, addf_apply, hidden_contraction, broadcastTo_1b_ab_apply, broadcast_apply]
  show max _ (Ideal.ofBits .f32 0x00000000#32) = _
  rw [Ideal.ofBits_zero_f32]
  rfl

/-- THE STORED VALUE IS A BLOCK OF `scores`. Let the two loaded row blocks be rows `6400 t … 6400 t + 6399` of two
    arrays `hs`, `hd` (an entry `y` of a block is the arrays' entry `i` whenever `i`'s row is `6400 t` plus `y`'s and the columns
    agree) and the four loaded parameters be the arrays `W1 b1 W2 b2` whole. Then entry `y` of the stored value is
    entry `i` of `scores hs hd W1 b1 W2 b2`, for every `i` whose row is `6400 t` plus `y`'s and whose column is `y`'s:
    both are `score` of the same two rows. -/
theorem stored_is_block (x0 x1 : FVec Ideal S6400x128 .bf16) (x2 : FVec Ideal S128x128 .bf16) (x3 : FVec Ideal S1x128 .f32)
    (x4 : FVec Ideal S128x1 .bf16) (x5 : FVec Ideal S1x1 .f32)
    (hs hd : S1600000x128.Idx → EReal) (W1 : S128x128.Idx → EReal) (b1 : S1x128.Idx → EReal) (W2 : S128x1.Idx → EReal)
    (b2 : S1x1.Idx → EReal) (t : ℕ) (y : S6400x1.Idx) (i : S1600000x1.Idx)
    (hi0 : (i 0).val = t * 6400 + (y 0).val) (hi1 : (i 1).val = (y 1).val)
    (h0 : ∀ (y' : S6400x128.Idx) (i' : S1600000x128.Idx), (i' 0).val = t * 6400 + (y' 0).val → (i' 1).val = (y' 1).val → x0 y' = hs i')
    (h1 : ∀ (y' : S6400x128.Idx) (i' : S1600000x128.Idx), (i' 0).val = t * 6400 + (y' 0).val → (i' 1).val = (y' 1).val → x1 y' = hd i')
    (h2 : ∀ y', x2 y' = W1 y') (h3 : ∀ y', x3 y' = b1 y') (h4 : ∀ y', x4 y' = W2 y') (h5 : ∀ y', x5 y' = b2 y') :
    k0_pay1 (F := Ideal) x0 x1 x2 x3 x4 x5 y = scores hs hd W1 b1 W2 b2 i := by
  obtain ⟨p, q, rfl⟩ : ∃ (p : Fin 6400) (q : Fin 1), y = ix2 p q := ⟨y 0, y 1, eq_ix2 y⟩
  obtain ⟨e, q', rfl⟩ : ∃ (e : Fin 1600000) (q' : Fin 1), i = ix2 e q' := ⟨i 0, i 1, eq_ix2 i⟩
  obtain rfl : q' = q := Fin.ext hi1
  rw [stored_apply, scores_apply]
  have ea : (fun j : Fin 128 => x0 (ix2 p j)) = fun j => hs (ix2 e j) := funext fun j => h0 (ix2 p j) (ix2 e j) hi0 rfl
  have eb : (fun j : Fin 128 => x1 (ix2 p j)) = fun j => hd (ix2 e j) := funext fun j => h1 (ix2 p j) (ix2 e j) hi0 rfl
  have eW1 : (fun j k : Fin 128 => x2 (ix2 j k)) = fun j k => W1 (ix2 j k) := funext fun j => funext fun k => h2 _
  have eb1 : (fun k : Fin 128 => x3 (ix2 0 k)) = fun k => b1 (ix2 0 k) := funext fun k => h3 _
  have eW2 : (fun k : Fin 128 => x4 (ix2 k q')) = fun k => W2 (ix2 k q') := funext fun k => h4 _
  rw [ea, eb, eW1, eb1, eW2, h5]

end Cert.KernelIdeal.Body

end
-- ==== Proof.KernelScores.lean ====
/-
  From blocks to the array. The kernel's grid has 250 points; point `t` stages rows `6400 t … 6400 t + 6399` of the two
  gathered arrays and the four parameter arrays whole, runs the body, and writes its [6400, 1] output block back to
  rows `6400 t … 6400 t + 6399` of the result. By the body's entrywise reading the block written at `t` is that block of
  `scores` of the arrays the region finds; the 250 blocks tile the result's 1 600 000 rows (row `r` lies in block
  `r / 6400`); so after the run the result array IS `scores` of those arrays.
-/
import proofs.«174525_j89000312308383_1_alg».proof.Proof.Gen.KernelIdeal.Value
import proofs.«174525_j89000312308383_1_alg».proof.Proof.BodyScore
import Idealize.ShloMosaic.Lib.Pipeline.Value

noncomputable section

namespace Cert.KernelIdeal.Scores

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 250 grid points: the two gathered arrays' windows and the result's move
    down the rows with the point, one block per point; the four parameter windows stay on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Point `t`'s block of the first gathered array is its rows `6400 t …`: entry `y` of the block is the array's entry `i`
    whenever `i`'s row is `6400 t` plus `y`'s and the columns agree. -/
theorem src_rows (c : Dev nD) (t : Fin cfg0.N) (y : S6400x128.Idx) (i : S1600000x128.Idx)
    (h0 : (i 0).val = t.val * 6400 + (y 0).val) (h1 : (i 1).val = (y 1).val) :
    (iblk m c 0 t : Vec Ideal S6400x128 .bf16) y = (V m c main_v7 : S1600000x128.Idx → EReal) i := by
  obtain ⟨e0, e1, -⟩ := block_indices t
  show V m c main_v7 (((cfg0.win 0).blk t).view.emb y) = V m c main_v7 i
  refine congrArg (V m c main_v7) (funext fun a => Fin.ext ?_)
  match a with
  | ⟨0, _⟩ => show win0_0.index t (0 : Fin 2) * 6400 + 1 * (y 0).val = (i 0).val; rw [e0, h0]; omega
  | ⟨1, _⟩ => show win0_0.index t (1 : Fin 2) * 128 + 1 * (y 1).val = (i 1).val; rw [e1, h1]; omega

/-- The same for the second gathered array. -/
theorem dst_rows (c : Dev nD) (t : Fin cfg0.N) (y : S6400x128.Idx) (i : S1600000x128.Idx)
    (h0 : (i 0).val = t.val * 6400 + (y 0).val) (h1 : (i 1).val = (y 1).val) :
    (iblk m c 1 t : Vec Ideal S6400x128 .bf16) y = (V m c main_v14 : S1600000x128.Idx → EReal) i := by
  obtain ⟨-, -, e0, e1, -⟩ := block_indices t
  show V m c main_v14 (((cfg0.win 1).blk t).view.emb y) = V m c main_v14 i
  refine congrArg (V m c main_v14) (funext fun a => Fin.ext ?_)
  match a with
  | ⟨0, _⟩ => show win0_1.index t (0 : Fin 2) * 6400 + 1 * (y 0).val = (i 0).val; rw [e0, h0]; omega
  | ⟨1, _⟩ => show win0_1.index t (1 : Fin 2) * 128 + 1 * (y 1).val = (i 1).val; rw [e1, h1]; omega

/-- Each parameter window's one block is its array whole. -/
theorem weights1_whole (c : Dev nD) (t : Fin cfg0.N) (y : S128x128.Idx) :
    (iblk m c 2 t : Vec Ideal S128x128 .bf16) y = (V m c main_v15 : S128x128.Idx → EReal) y := by
  obtain ⟨-, -, -, -, e0, e1, -⟩ := block_indices t
  show V m c main_v15 (((cfg0.win 2).blk t).view.emb y) = V m c main_v15 y
  refine congrArg (V m c main_v15) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem bias1_whole (c : Dev nD) (t : Fin cfg0.N) (y : S1x128.Idx) :
    (iblk m c 3 t : Vec Ideal S1x128 .f32) y = (V m c main_v17 : S1x128.Idx → EReal) y := by
  obtain ⟨-, -, -, -, -, -, e0, e1, -⟩ := block_indices t
  show V m c main_v17 (((cfg0.win 3).blk t).view.emb y) = V m c main_v17 y
  refine congrArg (V m c main_v17) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem weights2_whole (c : Dev nD) (t : Fin cfg0.N) (y : S128x1.Idx) :
    (iblk m c 4 t : Vec Ideal S128x1 .bf16) y = (V m c main_v16 : S128x1.Idx → EReal) y := by
  obtain ⟨-, -, -, -, -, -, -, -, e0, e1, -⟩ := block_indices t
  show V m c main_v16 (((cfg0.win 4).blk t).view.emb y) = V m c main_v16 y
  refine congrArg (V m c main_v16) (funext fun a => Fin.ext ?_)
  match a with
  | ⟨0, _⟩ => show win0_4.index t (0 : Fin 2) * 128 + 1 * (y 0).val = (y 0).val; rw [e0]; omega
  | ⟨1, _⟩ => show win0_4.index t (1 : Fin 2) * 1 + 1 * (y 1).val = (y 1).val; rw [e1]; omega

theorem bias2_whole (c : Dev nD) (t : Fin cfg0.N) (y : S1x1.Idx) :
    (iblk m c 5 t : Vec Ideal S1x1 .f32) y = (V m c main_v18 : S1x1.Idx → EReal) y := by
  obtain ⟨-, -, -, -, -, -, -, -, -, -, e0, e1, -⟩ := block_indices t
  show V m c main_v18 (((cfg0.win 5).blk t).view.emb y) = V m c main_v18 y
  refine congrArg (V m c main_v18) (funext fun a => Fin.ext ?_)
  match a with
  | ⟨0, _⟩ => show win0_5.index t (0 : Fin 2) * 1 + 1 * (y 0).val = (y 0).val; rw [e0]; omega
  | ⟨1, _⟩ => show win0_5.index t (1 : Fin 2) * 1 + 1 * (y 1).val = (y 1).val; rw [e1]; omega

/-- The result array the region's operands determine. -/
abbrev result (c : Dev nD) : S1600000x1.Idx → EReal :=
  scores (V m c main_v7) (V m c main_v14) (V m c main_v15) (V m c main_v17) (V m c main_v16) (V m c main_v18)

/-- WHAT POINT `t` WRITES BACK is block `t` of `result`. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero zero_offsets]
  simp only [View.ld_unit_zero (S := S6400x128) zero_offsets, View.ld_unit_zero (S := S128x128) zero_offsets,
    View.ld_unit_zero (S := S1x128) zero_offsets, View.ld_unit_zero (S := S128x1) zero_offsets,
    View.ld_unit_zero (S := S1x1) zero_offsets]
  obtain ⟨-, -, -, -, -, -, -, -, -, -, -, -, e0, e1⟩ := block_indices t
  funext y
  show k0_pay1 (F := Ideal) (iblk m c 0 t) (iblk m c 1 t) (iblk m c 2 t) (iblk m c 3 t) (iblk m c 4 t) (iblk m c 5 t) y
    = result m c (((cfg0.win 6).blk t).view.emb y)
  refine Cert.KernelIdeal.Body.stored_is_block _ _ _ _ _ _ _ _ _ _ _ _ t.val y _ ?_ ?_
    (src_rows m c t) (dst_rows m c t) (weights1_whole m c t) (bias1_whole m c t) (weights2_whole m c t) (bias2_whole m c t)
  · show win0_6.index t (0 : Fin 2) * 6400 + 1 * (y 0).val = t.val * 6400 + (y 0).val; rw [e0]; omega
  · show win0_6.index t (1 : Fin 2) * 1 + 1 * (y 1).val = (y 1).val; rw [e1]; omega

/-- An index of the result is in point `t`'s block iff each coordinate is in the block's range on its axis. -/
theorem mem_block (t : Fin cfg0.N) (i : S1600000x1.Idx) :
    i ∈ ((cfg0.win 6).blk t).view.set ↔ ∀ a : Fin 2, win0_6.index t a * S6400x1.size a ≤ (i a).val
      ∧ (i a).val < win0_6.index t a * S6400x1.size a + S6400x1.size a := by
  show i ∈ ((View.whole main_v19).slice (win0_6.rect t)).set ↔ _
  rw [View.set_slice_whole, Rect.mem_set_unit]
  exact Iff.rfl

/-- THE BLOCKS TILE THE RESULT: row `r` lies in the block of point `r / 6400`, and every point writes its block back. -/
theorem covered (i : S1600000x1.Idx) :
    ∃ t : Fin cfg0.N, (cfg0.win 6).flush t = true ∧ i ∈ ((cfg0.win 6).blk t).view.set := by
  have hi0 : (i 0).val < 1600000 := (i 0).isLt
  have hi1 : (i 1).val < 1 := (i 1).isLt
  have hN : cfg0.N = 250 := N_0
  have ht : (i 0).val / 6400 < cfg0.N := by rw [hN]; omega
  obtain ⟨-, -, -, -, -, -, -, -, -, -, -, -, e0, e1⟩ := block_indices ⟨(i 0).val / 6400, ht⟩
  refine ⟨⟨(i 0).val / 6400, ht⟩, flush0_6 _, ?_⟩
  rw [mem_block]
  intro a
  match a with
  | ⟨0, _⟩ =>
    show win0_6.index ⟨(i 0).val / 6400, ht⟩ (0 : Fin 2) * 6400 ≤ (i 0).val
      ∧ (i 0).val < win0_6.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win0_6.index ⟨(i 0).val / 6400, ht⟩ (1 : Fin 2) * 1 ≤ (i 1).val
      ∧ (i 1).val < win0_6.index ⟨(i 0).val / 6400, ht⟩ (1 : Fin 2) * 1 + 1
    rw [e1]; omega

/-- THE RESULT ARRAY after the run is `result`. -/
theorem final (c : Dev nD) : (dats m 0 c).arrAt 6 cfg0.N = result m c :=
  (dats m 0 c).arrAt_eq_of_cover 6 (result m c) (fun t _ => flushed_eq m c t) covered

/-- The run, read: the result array at `scores` of the arrays the region finds, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Scores

end
-- ==== Proof.Operands.lean ====
/-
  The arrays the kernel's region finds, set beside the reference's stages. Before the region the kernel's program
  wraps negative node numbers by the table's length, gathers the selected rows of the node table twice (once per
  edge endpoint), and re-lays its parameters: the weights change float format, the biases become a row [1, 128] and a
  single entry [1, 1]. The reference wraps and gathers in the same way, from the same table. At the ideal instance a
  change of float format is the identity, so each gathered array is the reference's gathered array — the gather and
  the wrap stay closed, one function on both sides —, each weight array is the argument itself, and each re-laid bias
  reads the argument at the same entry as the reference's broadcast of it.
-/
import proofs.«174525_j89000312308383_1_alg».proof.Proof.Gen.KernelIdeal.Frame
import proofs.«174525_j89000312308383_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first gathered array is the reference's: rows of the node table at the wrapped source node numbers. -/
theorem src_gathered (c : Dev nD) :
    (V m c main_v7 : S1600000x128.Idx → EReal)
      = Cert.ReferenceIdeal.Read.val_main_v6 (F := Ideal) (m ((c : Thread nD τ).loc main_arg0)) (m ((c : Thread nD τ).loc main_arg1)) := by
  dsimp only [V, hostOps0]
  after_results
  rfl

/-- The second gathered array is the reference's: rows of the node table at the wrapped destination node numbers. -/
theorem dst_gathered (c : Dev nD) :
    (V m c main_v14 : S1600000x128.Idx → EReal)
      = Cert.ReferenceIdeal.Read.val_main_v13 (F := Ideal) (m ((c : Thread nD τ).loc main_arg0)) (m ((c : Thread nD τ).loc main_arg2)) := by
  dsimp only [V, hostOps0]
  after_results
  rfl

/-- The first layer's weights reach the region unchanged. -/
theorem weights1 (c : Dev nD) : (V m c main_v15 : S128x128.Idx → EReal) = m ((c : Thread nD τ).loc main_arg3) := by
  dsimp only [V, hostOps0]
  after_results
  rfl

/-- The second layer's weights reach the region unchanged. -/
theorem weights2 (c : Dev nD) : (V m c main_v16 : S128x1.Idx → EReal) = m ((c : Thread nD τ).loc main_arg5) := by
  dsimp only [V, hostOps0]
  after_results
  rfl

/-- The first bias as a row: entry `(0, k)` is the argument's entry `k`, as in the reference's broadcast of it. -/
theorem bias1 (c : Dev nD) :
    (V m c main_v17 : S1x128.Idx → EReal) = Cert.ReferenceIdeal.Read.val_main_v16 (F := Ideal) (m ((c : Thread nD τ).loc main_arg4)) := by
  have e : (V m c main_v17 : S1x128.Idx → EReal)
      = shapeCast S1x128 (m ((c : Thread nD τ).loc main_arg4) : S128.Idx → EReal) Facts₀.shapeCasts_S128_S1x128 := by
    dsimp only [V, hostOps0]
    after_results
    rfl
  rw [e]
  funext i
  obtain ⟨u, k, rfl⟩ : ∃ (u : Fin 1) (k : Fin 128), i = ix2 u k := ⟨i 0, i 1, eq_ix2 i⟩
  rw [shapeCast_a_1a_apply, Cert.ReferenceIdeal.Read.val_main_v16_apply]
  exact congrArg _ (funext fun a => by match a with | ⟨0, _⟩ => rfl)

/-- The second bias as a single entry: it is the argument's one entry, as in the reference's broadcast of it. -/
theorem bias2 (c : Dev nD) :
    (V m c main_v18 : S1x1.Idx → EReal) = Cert.ReferenceIdeal.Read.val_main_v21 (F := Ideal) (m ((c : Thread nD τ).loc main_arg6)) := by
  have e : (V m c main_v18 : S1x1.Idx → EReal)
      = shapeCast S1x1 (m ((c : Thread nD τ).loc main_arg6) : S1.Idx → EReal) Facts₀.shapeCasts_S1_S1x1 := by
    dsimp only [V, hostOps0]
    after_results
    rfl
  rw [e]
  funext i
  obtain ⟨u, k, rfl⟩ : ∃ (u : Fin 1) (k : Fin 1), i = ix2 u k := ⟨i 0, i 1, eq_ix2 i⟩
  rw [shapeCast_a_1a_apply, Cert.ReferenceIdeal.Read.val_main_v21_apply]
  exact congrArg _ (funext fun a => by
    match a with
    | ⟨0, _⟩ => exact Fin.ext (by have hk := k.isLt; show k.val = 0; omega))

end Cert.KernelIdeal.Operands

end
-- ==== Proof.lean ====
/-
  Edge scores of a graph: for each of 1 600 000 edges, the rows of a node table [100 000, 128] that the edge's source
  and destination select are multiplied entry by entry and passed through a two-layer perceptron,

      score = Σ_k max (Σ_j (a j · b j) · W1 j k + b1 k) 0 · W2 k + b2 .

  The kernel gathers the rows on the host and evaluates the perceptron on the device, 6400 edges per grid point, with
  both contractions on the matrix unit from a zero accumulator; the reference evaluates the same expression with two
  whole-array contractions. Over the extended reals the two compute ONE function, `Cert.EdgeMlp.scores`, of the same
  gathered rows and the same parameters: changes of float format are the identity, a contraction from zero is the
  plain sum over the contracted coordinate, and the two programs form their sums and products in the same
  arrangement, so no algebraic law — and no finiteness of the inputs — is needed to identify them.

  Proof/EdgeScore.lean states the function; Proof/RefScores.lean reads the reference's result as it; Proof/BodyScore.lean
  reads one entry of what the kernel's body stores as it; Proof/KernelScores.lean passes from the 250 written blocks to
  the whole result array; Proof/Operands.lean identifies the arrays the kernel's region finds with the reference's own
  stages (the shared wrap of negative node numbers and the gather are never opened). Here the five claims are
  assembled: the three frames are the generated runs, the idealization ledger is empty, and the two results agree.
-/
import proofs.«174525_j89000312308383_1_alg».proof.Defs
import proofs.«174525_j89000312308383_1_alg».proof.Proof.Gen.Kernel
import proofs.«174525_j89000312308383_1_alg».proof.Proof.Gen.Kernel.Skeleton
import proofs.«174525_j89000312308383_1_alg».proof.Proof.Gen.Kernel.Launch
import proofs.«174525_j89000312308383_1_alg».proof.Proof.Gen.Kernel.Points
import proofs.«174525_j89000312308383_1_alg».proof.Proof.Gen.Kernel.Frame
import proofs.«174525_j89000312308383_1_alg».proof.Proof.Gen.KernelIdeal
import proofs.«174525_j89000312308383_1_alg».proof.Proof.Gen.KernelIdeal.Skeleton
import proofs.«174525_j89000312308383_1_alg».proof.Proof.Gen.KernelIdeal.Launch
import proofs.«174525_j89000312308383_1_alg».proof.Proof.Gen.KernelIdeal.Points
import proofs.«174525_j89000312308383_1_alg».proof.Proof.Gen.KernelIdeal.Frame
import proofs.«174525_j89000312308383_1_alg».proof.Proof.Gen.ReferenceIdeal
import proofs.«174525_j89000312308383_1_alg».proof.Proof.Gen.Pre_finite_inputs
import proofs.«174525_j89000312308383_1_alg».proof.Proof.Gen.KernelIdeal.Value
import proofs.«174525_j89000312308383_1_alg».proof.Proof.Gen.ReferenceIdeal.Run
import proofs.«174525_j89000312308383_1_alg».proof.Proof.Gen.ReferenceIdeal.Read
import proofs.«174525_j89000312308383_1_alg».proof.Proof.EdgeScore
import proofs.«174525_j89000312308383_1_alg».proof.Proof.RefScores
import proofs.«174525_j89000312308383_1_alg».proof.Proof.BodyScore
import proofs.«174525_j89000312308383_1_alg».proof.Proof.KernelScores
import proofs.«174525_j89000312308383_1_alg».proof.Proof.Operands
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run to its result, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at `scores` of the arrays its region finds, the reference's
    at `scores` of its own gathered arrays, weights and re-laid biases; those arrays are the same, one by one. -/
theorem algebraic : Cert.algebraic_KernelIdeal_ReferenceIdeal := by
  intro m ρ m' ρ' _ hagree
  refine ⟨fun c => Cert.KernelIdeal.Scores.result m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v23_eq, Cert.ReferenceIdeal.RefValue.result_eq, a0, a1, a2, a3, a4, a5, a6]
  show _ = Cert.EdgeMlp.scores _ _ _ _ _ _
  rw [Cert.KernelIdeal.Operands.src_gathered, Cert.KernelIdeal.Operands.dst_gathered, Cert.KernelIdeal.Operands.weights1,
    Cert.KernelIdeal.Operands.bias1, Cert.KernelIdeal.Operands.weights2, Cert.KernelIdeal.Operands.bias2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
